-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1604 : Shape := ⟨2, ![16384, 1604]⟩
abbrev S1604x1604 : Shape := ⟨2, ![1604, 1604]⟩
abbrev S16384 : Shape := ⟨1, ![16384]⟩
abbrev S_ : Shape := ⟨0, ![]⟩

class Facts : Prop where
  bcast_S_S16384x1604 : S_.BroadcastsInDim S16384x1604 (![] : Fin 0 → Fin S16384x1604.rank)
  reducesTo_S16384x1604_S_d0_1 : S16384x1604.ReducesTo [0, 1] S_
  h_S_ : 0 < S_.numel
  bcast_S_S1604x1604 : S_.BroadcastsInDim S1604x1604 (![] : Fin 0 → Fin S1604x1604.rank)
  reducesTo_S1604x1604_S_d0_1 : S1604x1604.ReducesTo [0, 1] S_

variable [Facts]

def fn {F : FTy → Type} [FloatOps F] (main_arg0 : FVec F S16384x1604 .f32) (main_arg1 : FVec F S1604x1604 .f32) (main_arg2 : IVec S16384 32) : IVec S_ 1 :=
  let main_v0 : FVec F S16384x1604 .f32 := Host.absf main_arg0
  let main_cst : FVec F S_ .f32 := constant S_ .f32 0x7F800000#32
  let main_v1 : FVec F S16384x1604 .f32 := broadcastInDim S16384x1604 ![] bcast_S_S16384x1604 main_cst
  let main_v2 : IVec S16384x1604 1 := cmpf .olt main_v0 main_v1
  let main_c : IVec S_ 1 := constantI S_ 1 1#1
  let main_v3 : IVec S_ 1 := (fun x v => Host.reduce IntOp.andi x v reducesTo_S16384x1604_S_d0_1 h_S_) main_v2 main_c
  let main_v4 : FVec F S1604x1604 .f32 := Host.absf main_arg1
  let main_cst_0 : FVec F S_ .f32 := constant S_ .f32 0x7F800000#32
  let main_v5 : FVec F S1604x1604 .f32 := broadcastInDim S1604x1604 ![] bcast_S_S1604x1604 main_cst_0
  let main_v6 : IVec S1604x1604 1 := cmpf .olt main_v4 main_v5
  let main_c_1 : IVec S_ 1 := constantI S_ 1 1#1
  let main_v7 : IVec S_ 1 := (fun x v => Host.reduce IntOp.andi x v reducesTo_S1604x1604_S_d0_1 h_S_) main_v6 main_c_1
  let main_v8 : IVec S_ 1 := andi main_v3 main_v7
  main_v8
-- ==== Kernel.lean ====
abbrev S16384x1604 : Shape := ⟨2, ![16384, 1604]⟩
abbrev S1604x1604 : Shape := ⟨2, ![1604, 1604]⟩
abbrev S16384 : Shape := ⟨1, ![16384]⟩
abbrev S16384x1 : Shape := ⟨2, ![16384, 1]⟩
abbrev S1x1 : Shape := ⟨2, ![1, 1]⟩
abbrev S512x1604 : Shape := ⟨2, ![512, 1604]⟩
abbrev S512x1 : Shape := ⟨2, ![512, 1]⟩
abbrev S512 : Shape := ⟨1, ![512]⟩
abbrev S1x512 : Shape := ⟨2, ![1, 512]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16384x1604, .f32⟩
  | .hbm, ⟨1, _⟩ => ⟨S1604x1604, .f32⟩
  | .hbm, ⟨2, _⟩ => ⟨S16384, .i32⟩
  | .hbm, ⟨3, _⟩ => ⟨S16384x1, .i32⟩
  | .hbm, ⟨4, _⟩ => ⟨S1604x1604, .f32⟩
  | .hbm, ⟨5, _⟩ => ⟨S1604x1604, .bf16⟩
  | .hbm, ⟨6, _⟩ => ⟨S1x1, .f32⟩
  | .hbm, ⟨7, _⟩ => ⟨S_, .f32⟩
  | .local _ .vmem, ⟨0, _⟩ => ⟨S512x1604, .f32⟩
  | .local _ .vmem, ⟨1, _⟩ => ⟨S512x1604, .f32⟩
  | .local _ .vmem, ⟨2, _⟩ => ⟨S1604x1604, .bf16⟩
  | .local _ .vmem, ⟨3, _⟩ => ⟨S512x1, .i32⟩
  | .local _ .vmem, ⟨4, _⟩ => ⟨S512x1, .i32⟩
  | .local _ .vmem, ⟨5, _⟩ => ⟨S1x1, .f32⟩
  | .local _ .vmem, ⟨6, _⟩ => ⟨S1x1, .f32⟩
  | _, _ => ⟨S16384x1604, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v45 : BitVec 1 := Scalar.cmpi .eq arg0 c31_i32
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1604 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1604x1604 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384_S16384x1 : S16384.ShapeCasts S16384x1
  transposes_S1604x1604_S1604x1604_1_0 : S1604x1604.Transposes [1, 0] S1604x1604
  bitsLt_bf16_f32 : FTy.bits .bf16 < FTy.bits .f32
  inb_S512x1604_S512x1604_0_0 : ∀ a, (![0, 0] : Fin 2 → Nat) a + S512x1604.size a ≤ S512x1604.size a
  h_S512x1604 : 0 < S512x1604.numel
  reduces_S512x1604_S512 : S512x1604.Reduces [1] S512
  shapeCasts_S512_S512x1 : S512.ShapeCasts S512x1
  broadcasts_S512x1_S512x1604 : S512x1.Broadcasts S512x1604
  inb_S512x1_S512x1_0_0 : ∀ a, (![0, 0] : Fin 2 → Nat) a + S512x1.size a ≤ S512x1.size a
  h_S512x1 : 0 < S512x1.numel
  shapeCasts_S512x1_S512 : S512x1.ShapeCasts S512
  iota_S512x1604_d1_w32 : S512x1604.Iotas .tc 32 [1]
  natLt_1_32 : 1 < 32
  inb_S1604x1604_S1604x1604_0_0 : ∀ a, (![0, 0] : Fin 2 → Nat) a + S1604x1604.size a ≤ S1604x1604.size a
  h_S1604x1604 : 0 < S1604x1604.numel
  shapeCasts_S1604x1604_S1604x1604 : S1604x1604.ShapeCasts S1604x1604
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S512x1604_S1604x1604_S512x1604_1_0_0_1_n_n_wf : DotDims.WF S512x1604 S1604x1604 S512x1604 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1604.size a ≤ S16384x1604.size a
  hwx0_0 : ∀ i : grid0.Coords, EltTy.bits .f32 = 32 ∨ (Rect.block (s := S16384x1604) S512x1604.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1604x1604.size a ≤ S1604x1604.size a
  hwx0_1 : ∀ i : grid0.Coords, EltTy.bits .bf16 = 32 ∨ (Rect.block (s := S1604x1604) S1604x1604.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x1604_S1604x1604_S512x1604_1_0_0_1_n_n : DotDims S512x1604 S1604x1604 S512x1604 where
  lhsContracting := [1]
  rhsContracting := [0]
  lhsNonContracting := [0]
  rhsNonContracting := [1]
  lhsBatch := []
  rhsBatch := []
  wf := dot_S512x1604_S1604x1604_S512x1604_1_0_0_1_n_n_wf

abbrev win0_0 : Pipeline.Window sig grid0 :=
  Pipeline.Window.ofSpec (Memref.whole main_arg0) S512x1604.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1604x1604.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1604 : Shape := ⟨2, ![16384, 1604]⟩
abbrev S1604x1604 : Shape := ⟨2, ![1604, 1604]⟩
abbrev S16384 : Shape := ⟨1, ![16384]⟩
abbrev S16384x1 : Shape := ⟨2, ![16384, 1]⟩
abbrev S1x1604 : Shape := ⟨2, ![1, 1604]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16384x1604, .f32⟩
  | .hbm, ⟨1, _⟩ => ⟨S1604x1604, .f32⟩
  | .hbm, ⟨2, _⟩ => ⟨S16384, .i32⟩
  | .hbm, ⟨3, _⟩ => ⟨S16384x1, .i32⟩
  | .hbm, ⟨4, _⟩ => ⟨S1x1604, .i32⟩
  | .hbm, ⟨5, _⟩ => ⟨S16384x1604, .i32⟩
  | .hbm, ⟨6, _⟩ => ⟨S16384x1604, .i32⟩
  | .hbm, ⟨7, _⟩ => ⟨S16384x1604, .i1⟩
  | .hbm, ⟨8, _⟩ => ⟨S16384x1604, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S16384x1604, .f32⟩
  | .hbm, ⟨13, _⟩ => ⟨S16384x1604, .f32⟩
  | .hbm, ⟨14, _⟩ => ⟨S16384x1604, .f32⟩
  | .hbm, ⟨15, _⟩ => ⟨S_, .f32⟩
  | .hbm, ⟨16, _⟩ => ⟨S16384x1604, .f32⟩
  | .hbm, ⟨17, _⟩ => ⟨S16384x1604, .f32⟩
  | .hbm, ⟨18, _⟩ => ⟨S16384x1604, .f32⟩
  | .hbm, ⟨19, _⟩ => ⟨S16384x1604, .f32⟩
  | .hbm, ⟨20, _⟩ => ⟨S16384x1604, .f32⟩
  | .hbm, ⟨21, _⟩ => ⟨S_, .f32⟩
  | .hbm, ⟨22, _⟩ => ⟨S16384x1604, .f32⟩
  | .hbm, ⟨23, _⟩ => ⟨S16384x1604, .f32⟩
  | .hbm, ⟨24, _⟩ => ⟨S16384x1604, .f32⟩
  | .hbm, ⟨25, _⟩ => ⟨S_, .f32⟩
  | .hbm, ⟨26, _⟩ => ⟨S16384x1604, .f32⟩
  | .hbm, ⟨27, _⟩ => ⟨S16384x1604, .f32⟩
  | .hbm, ⟨28, _⟩ => ⟨S16384x1604, .f32⟩
  | .hbm, ⟨29, _⟩ => ⟨S16384x1604, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16384x1604, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x1604_0_1 : S16384x1.BroadcastsInDim S16384x1604 (![0, 1] : Fin 2 → Fin S16384x1604.rank)
  bcast_S1x1604_S16384x1604_0_1 : S1x1604.BroadcastsInDim S16384x1604 (![0, 1] : Fin 2 → Fin S16384x1604.rank)
  reducesTo_S16384x1604_S16384_d1 : S16384x1604.ReducesTo [1] S16384
  h_S_ : 0 < S_.numel
  bcast_S_S16384x1604 : S_.BroadcastsInDim S16384x1604 (![] : Fin 0 → Fin S16384x1604.rank)
  reducesTo_S16384_S_d0 : S16384.ReducesTo [0] S_
  dot_S16384x1604_S1604x1604_S16384x1604_1_1_0_0_n_n_wf : DotDims.WF S16384x1604 S1604x1604 S16384x1604 [1] [1] [0] [0] [] []

variable [Facts₀]

def dot_S16384x1604_S1604x1604_S16384x1604_1_1_0_0_n_n : DotDims S16384x1604 S1604x1604 S16384x1604 where
  lhsContracting := [1]
  rhsContracting := [1]
  lhsNonContracting := [0]
  rhsNonContracting := [0]
  lhsBatch := []
  rhsBatch := []
  wf := dot_S16384x1604_S1604x1604_S16384x1604_1_1_0_0_n_n_wf

class Facts : Prop extends Facts₀ where

variable [Facts]
-- ==== Proof.LibBlockedSum.lean ====
/-
  A sum over an axis of length nb · bs may be taken block by block: for each of the nb blocks in order, the sum over the
  bs entries of the block. Stated for any commutative additive monoid (the extended reals among them: re-grouping a sum
  needs no finiteness), with the entry of block k at offset d addressed as (bs · k + d) mod (nb · bs) so that the
  statement needs no bound proofs; within range the remainder is the number itself.
-/
import Mathlib.Algebra.BigOperators.Fin
import Mathlib.Algebra.BigOperators.Field
import Mathlib.Logic.Equiv.Fin.Basic
import Mathlib.Tactic.Ring

namespace Cert.Lib

open Finset

/-- The sum over the blocks, in order, of the sums over each block is the sum over the whole axis. -/
theorem sum_range_blocks {M : Type*} [AddCommMonoid M] (nb bs : ℕ) (hpos : 0 < nb * bs) (f : Fin (nb * bs) → M) :
    ∑ k ∈ Finset.range nb, ∑ d : Fin bs, f ⟨(bs * k + d.val) % (nb * bs), Nat.mod_lt _ hpos⟩ = ∑ j, f j := by
  rw [← Fin.sum_univ_eq_sum_range (fun k => ∑ d : Fin bs, f ⟨(bs * k + d.val) % (nb * bs), Nat.mod_lt _ hpos⟩) nb]
  rw [← Fintype.sum_prod_type']
  refine Fintype.sum_equiv finProdFinEquiv _ _ (fun ⟨k, d⟩ => ?_)
  congr 1
  apply Fin.ext
  show (bs * k.val + d.val) % (nb * bs) = d.val + bs * k.val
  have hlt : bs * k.val + d.val < nb * bs := by
    have h1 : bs * k.val + d.val < bs * k.val + bs := Nat.add_lt_add_left d.isLt _
    have h2 : bs * k.val + bs = bs * (k.val + 1) := by ring
    have h3 : bs * (k.val + 1) ≤ bs * nb := Nat.mul_le_mul_left bs k.isLt
    calc bs * k.val + d.val < bs * (k.val + 1) := h2 ▸ h1
      _ ≤ bs * nb := h3
      _ = nb * bs := Nat.mul_comm _ _
  rw [Nat.mod_eq_of_lt hlt, Nat.add_comm]

/-- The partial sums over the first blocks grow by one block at a time. -/
theorem sum_range_blocks_succ {M : Type*} [AddCommMonoid M] (g : ℕ → M) (k : ℕ) :
    ∑ j ∈ Finset.range (k + 1), g j = (∑ j ∈ Finset.range k, g j) + g k := Finset.sum_range_succ g k

end Cert.Lib
-- ==== Proof.LibOneHotRunSum.lean ====
/-
  General facts, at the ideal instance, met when a tiled loss kernel is compared with its whole-array reference:

  * THE ONE-HOT WEIGHT.  `hot g j` is the number 1 when the 32-bit word of the column number `j` is the word `g`, else 0.
    A reference spells it "compare the target with the column number, convert the bit unsigned" (`hot_uitofp`); a kernel
    spells it "compare the column number with the target, widen the bit to 32 bits, convert it signed" (`hot_sitofp`).
    Both are `hot`: equality of words is symmetric, and a widened bit read signed is the bit read unsigned.
  * THE ZERO WORD is the extended real 0, so a sum started from it is the sum (`zero_add_eq`) and a difference from it is
    the negation (`zero_sub_eq`).
  * A SUM OVER A RANK-1 INDEX SET is the sum over its coordinate (`sum_idx1`).
  * AN ACCUMULATOR started at the zero word plus the first term, with one term added per step, holds after step `n` the
    sum of the terms `0 … n` (`runSum`, `runSum_eq`): a law of a commutative additive monoid, no finiteness needed.
  * THE HOST'S ROW MAXIMUM.  A one-operand reduce with a `maximum` body along the columns of an `[a, b]` array is, at row
    `r`, the fold of `max` from the initial value over the column index (`host_row_max_apply`, any extents): the
    reference-side companion of a kernel's `multi_reduction <maximumf>` along the same axis.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.OneHotRunSum

open Idealize.ShloMosaic Idealize.ShloMosaic.ValueIdx

/-! ## The one-hot weight -/

/-- The one-hot weight of column `j` for the target word `g`: the bit "g is the word of j", as a number. -/
def hot (g : BitVec 32) (j : ℕ) : EReal := (((IntOp.cmpi .eq g (BitVec.ofNat 32 j)).toNat : ℝ) : EReal)

/-- Equality of words does not depend on the order of its operands. -/
theorem cmpi_eq_comm {w : ℕ} (a b : BitVec w) : IntOp.cmpi .eq a b = IntOp.cmpi .eq b a := by
  show BitVec.ofBool (a == b) = BitVec.ofBool (b == a)
  rw [BEq.comm]

/-- A bit widened to 32 bits and read signed is the bit read unsigned. -/
theorem toInt_setWidth_bit (b : BitVec 1) : ((b.setWidth 32).toInt : ℝ) = (b.toNat : ℝ) := by
  rcases BitVec.eq_zero_or_eq_one b with h | h <;> subst h <;> simp

/-- The comparison "target against column number", taken unsigned as a number: the weight. -/
theorem hot_uitofp (g : BitVec 32) (j : ℕ) :
    FloatOps.uitofp (F := Ideal) .f32 (IntOp.cmpi .eq g (BitVec.ofNat 32 j)) = hot g j := rfl

/-- The comparison "column number against target", widened and taken signed as a number: the same weight. -/
theorem hot_sitofp (g : BitVec 32) (j : ℕ) :
    FloatOps.sitofp (F := Ideal) .f32 ((IntOp.cmpi .eq (BitVec.ofNat 32 j) g).setWidth 32) = hot g j := by
  show (((((IntOp.cmpi .eq (BitVec.ofNat 32 j) g).setWidth 32).toInt : ℝ)) : EReal) = hot g j
  rw [toInt_setWidth_bit, cmpi_eq_comm]
  rfl

/-! ## The zero word -/

/-- The f32 zero word, read as an extended real. -/
abbrev zero : EReal := Ideal.ofBits .f32 0x00000000#32

theorem zero_eq : zero = 0 := Ideal.ofBits_zero_f32

/-- A negation written as a difference from zero. -/
theorem zero_sub_eq (a : EReal) : zero - a = -a := by rw [zero_eq, zero_sub]

/-- A sum started from zero. -/
theorem zero_add_eq (a : EReal) : zero + a = a := by rw [zero_eq, zero_add]

/-! ## A sum over a rank-1 index set -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## An accumulator started from the zero word -/

/-- The accumulator after step `n`: zero plus the first term, then one term added per step. -/
def runSum (p : ℕ → EReal) : ℕ → EReal
  | 0 => zero + p 0
  | n + 1 => runSum p n + p (n + 1)

/-- It is the sum of the terms `0 … n`. -/
theorem runSum_eq (p : ℕ → EReal) (n : ℕ) : runSum p n = ∑ k ∈ Finset.range (n + 1), p k := by
  induction n with
  | zero => simp [runSum, zero_add_eq]
  | succ n ih => rw [runSum, ih, Finset.sum_range_succ _ (n + 1)]

/-! ## The host's maximum along the rows -/

/-- A one-operand reduce with a `maximum` body along the columns of an `[a, b]` array, at row `r`: the fold of `max` from
    the initial value over the column index (the body commutes and associates, so the fold's order is immaterial). -/
theorem host_row_max_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  rw [Host.reduce_eq_fold_single (FloatOps.maximumf (F := Ideal) (φ := φ)) x init h' h hu (ix1 r)]
  exact congrArg (fun g => (Finset.univ : Finset (Fin b)).fold max (init (Shape.Idx.first hu)) g)
    (funext fun k => congrArg x (funext fun ax => by match ax with | ⟨0, _⟩ => rfl | ⟨1, _⟩ => rfl))

end Cert.OneHotRunSum

end
-- ==== Proof.SeesawSpec.lean ====
/-
  The seesaw loss as ONE function of the argument arrays, on the extended reals.

  For a row `x` of logits (length `C`), a target word `g` and the class matrix `s` (`C × C`):
    M        = the maximum of the row, taken from -∞;
    num j    = exp (x j - M);
    hot j    = 1 if the column number j, as a 32-bit word, is the target word, else 0;
    den i    = Σₖ ((1 - hot k) · num k) · s i k  +  num i;
    rowLoss  = - Σⱼ hot j · log (num j / (den j + ε) + ε);
  and the loss of the batch is the sum of the rows' losses divided by the number of rows.  The constants `1`, `ε`,
  `-∞` and the row count are kept as the binary words both programs carry: no law below depends on their values, and
  only the zero word is ever evaluated (it is the extended real `0`).

  The laws used to join the two programs are laws of a commutative additive monoid only (a sum may be taken tile by
  tile; `0 + a = a`; `0 - a = -a`): none needs an entry to be finite.
-/
import Idealize.ShloMosaic.PureOps.Ideal
import Idealize.ShloMosaic.PureOps.Ideal.Laws
import Idealize.ShloMosaic.Lib.ValueIdx
import proofs.«117401_j73289321939313_1_alg».proof.Proof.LibBlockedSum
import proofs.«117401_j73289321939313_1_alg».proof.Proof.LibOneHotRunSum

noncomputable section

open scoped BigOperators

namespace Cert.Seesaw

open Idealize.ShloMosaic Idealize.ShloMosaic.ValueIdx

/-- The words both programs carry, read as extended reals: ε, one, -∞ (the maximum's start) and the row count. -/
abbrev eps : EReal := Ideal.ofBits .f32 0x358637BD#32
abbrev one : EReal := Ideal.ofBits .f32 0x3F800000#32
abbrev ninf : EReal := Ideal.ofBits .f32 0xFF800000#32
abbrev cnt : EReal := Ideal.ofBits .f32 0x46800000#32

-- The one-hot weight, the zero word, a rank-1 index sum and the accumulator chain are general facts: they are taken
-- from the lemma file and used here under their own names.
export Cert.OneHotRunSum (hot hot_uitofp hot_sitofp zero zero_eq zero_sub_eq zero_add_eq sum_idx1 runSum runSum_eq)

section Row
variable {C : ℕ}

/-- The row's maximum, from -∞. -/
def rowMax (x : Fin C → EReal) : EReal := (Finset.univ : Finset (Fin C)).fold max ninf x
/-- The shifted exponential of entry `j`. -/
def num (x : Fin C → EReal) (j : Fin C) : EReal := Ideal.exp (x j - rowMax x)
/-- The seesaw denominator of class `i`: the other classes' exponentials weighted by row `i` of `s`, plus its own. -/
def den (x : Fin C → EReal) (g : BitVec 32) (s : Fin C → Fin C → EReal) (i : Fin C) : EReal :=
  (∑ k : Fin C, ((one - hot g k) * num x k) * s i k) + num x i
/-- One column's contribution to the row's loss. -/
def term (x : Fin C → EReal) (g : BitVec 32) (s : Fin C → Fin C → EReal) (j : Fin C) : EReal :=
  hot g j * Ideal.log (Ideal.div (num x j) (den x g s j + eps) + eps)
/-- The loss of one row. -/
def rowLoss (x : Fin C → EReal) (g : BitVec 32) (s : Fin C → Fin C → EReal) : EReal := -(∑ j : Fin C, term x g s j)

end Row

/-- The loss of the batch: the rows' losses summed, over the row count. -/
def total {R C : ℕ} (X : Fin R → Fin C → EReal) (g : Fin R → BitVec 32) (s : Fin C → Fin C → EReal) : EReal :=
  Ideal.div (∑ r : Fin R, rowLoss (X r) (g r) s) cnt

/-! ## A sum over the rows, taken tile by tile -/

/-- Row `d` of tile `k`, among the 16384 rows. -/
def tileRow (k : ℕ) (d : Fin 512) : Fin 16384 := ⟨(512 * k + d.val) % 16384, Nat.mod_lt _ (by norm_num)⟩

/-- The 16384 rows are 32 tiles of 512 consecutive rows: the sum over the tiles, in order, of each tile's sum is the
    sum over the rows. -/
theorem sum_tiles (f : Fin 16384 → EReal) :
    ∑ k ∈ Finset.range 32, ∑ d : Fin 512, f (tileRow k d) = ∑ j, f j :=
  Cert.Lib.sum_range_blocks 32 512 (by norm_num) f

end Cert.Seesaw

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.LibUnitAxes.lean ====
/-
  A vector given a unit axis.

  A vector of length `N` can be made a column `[N, 1]` or a one-row matrix `[1, N]` either by a reshape (which
  keeps the row-major position of every entry) or by a broadcast along the axis that keeps the vector's coordinate.
  Both spellings denote the same array: the entry at `(p, 0)` of the column, and the entry at `(0, q)` of the
  one-row matrix, is the vector's entry at `p`, at `q`. Nothing here depends on the element type.
-/
import Idealize.ShloMosaic.Lib.ValueIdx
import Idealize.ShloMosaic.Lib.Pipeline.Value

noncomputable section

namespace UnitAxes

open Idealize.ShloMosaic Idealize.ShloMosaic.ValueIdx

variable {α : Type} {N : Nat}

/-- A vector reshaped to a column is the vector broadcast along axis 0 of the column's shape. -/
theorem col_reshape_eq_broadcast (v : (⟨1, ![N]⟩ : Shape).Idx → α)
    (h : (⟨1, ![N]⟩ : Shape).ShapeCasts ⟨2, ![N, 1]⟩)
    (h' : (⟨1, ![N]⟩ : Shape).BroadcastsInDim ⟨2, ![N, 1]⟩ ![0]) :
    shapeCast (⟨2, ![N, 1]⟩ : Shape) v h = broadcastInDim (⟨2, ![N, 1]⟩ : Shape) ![0] h' v := by
  funext j
  have hj0 : (j 0).val < N := (j 0).isLt
  have hj1 : (j 1).val < 1 := (j 1).isLt
  have e1 : shapeCast (⟨2, ![N, 1]⟩ : Shape) v h j = v (ix1 ⟨(j 0).val, hj0⟩) :=
    shapeCast_apply v h j (ix1 ⟨(j 0).val, hj0⟩) (by
      rw [Shape.rowMajor_val_one, Shape.rowMajor_val_two]
      show (j 0).val = (j 0).val * 1 + (j 1).val
      omega)
  have e2 : broadcastInDim (⟨2, ![N, 1]⟩ : Shape) ![0] h' v j = v (ix1 ⟨(j 0).val, hj0⟩) :=
    broadcastInDim_apply ![0] h' v j (ix1 ⟨(j 0).val, hj0⟩) (fun a => by
      match a with
      | ⟨0, _⟩ =>
        show (j 0).val = if N = 1 then 0 else (j 0).val
        split <;> omega)
  rw [e1, e2]

/-- A vector reshaped to a one-row matrix reads, in its row, the vector. -/
theorem row_reshape_apply (v : (⟨1, ![N]⟩ : Shape).Idx → α)
    (h : (⟨1, ![N]⟩ : Shape).ShapeCasts ⟨2, ![1, N]⟩) (q : Fin N) :
    shapeCast (⟨2, ![1, N]⟩ : Shape) v h (ix2 (0 : Fin 1) q) = v (ix1 q) := by
  refine shapeCast_apply v h (ix2 (0 : Fin 1) q) (ix1 q) ?_
  rw [Shape.rowMajor_val_one, Shape.rowMajor_val_two]
  show q.val = 0 * N + q.val
  omega

end UnitAxes

end
-- ==== Proof.SeesawTile.lean ====
/-
  One tile of the kernel: what the body computes from a block of 512 rows of logits, the 512 target words beside
  them and the whole (transposed) class matrix is the sum of the 512 rows' seesaw losses.

  The body's arithmetic is restated here as named stages — each row's maximum, the shifted exponentials, the one-hot
  weights, the mixing product, the per-column terms, the per-row losses, the tile's sum — and the body's own term is
  those stages by unfolding.  Each stage is then read at an index:
    * the row maximum is the fold of `max` from -∞ along the row, repeated along the row by a column re-layout and a
      broadcast;
    * the one-hot weight at (r, j) compares the column number j with row r's target word;
    * the product into the zero accumulator at (r, i) is Σₖ a(r,k) · sᵗ(k,i); the matrix arrives transposed, so
      sᵗ(k,i) is s(i,k): the reference's contraction over the second axis of `s`;
    * a change of float format on the way into the product is the identity on extended reals;
    * the negation is written `0 - ·`, and the tile's sum goes through a one-row re-layout of the 512 losses.
-/
import proofs.«117401_j73289321939313_1_alg».proof.Proof.Gen.KernelIdeal.Skeleton
import proofs.«117401_j73289321939313_1_alg».proof.Proof.SeesawSpec
import proofs.«117401_j73289321939313_1_alg».proof.Proof.LibDenseRows
import proofs.«117401_j73289321939313_1_alg».proof.Proof.LibUnitAxes
import Idealize.ShloMosaic.Lib.Pipeline.Value
import Idealize.ShloMosaic.PureOps.Ideal.Laws

noncomputable section

open scoped BigOperators

namespace Cert.Seesaw.Tile

open Cert.KernelIdeal Cert.KernelIdeal.Gen Idealize.ShloMosaic Idealize.ShloMosaic.ValueIdx Cert.DenseRows Cert.Seesaw

variable (x0 : FVec Ideal S512x1604 .f32) (tg : IVec S512x1 32) (st : FVec Ideal S1604x1604 .bf16)

/-! ## The stages -/

/-- Each row's maximum. -/
def maxV : FVec Ideal S512 .f32 :=
  multiReduction .maximumf [1] S512 x0 0xFF800000#32 reduces_S512x1604_S512 (.inl rfl) rfl
/-- The shifted exponentials. -/
def numV : FVec Ideal S512x1604 .f32 :=
  exp (subf x0 (broadcastTo S512x1604 (shapeCast S512x1 (maxV x0) shapeCasts_S512_S512x1) broadcasts_S512x1_S512x1604))
/-- The one-hot weights. -/
def hotV : FVec Ideal S512x1604 .f32 :=
  sitofp .f32 (extui 32 (cmpi .eq (iota .tc S512x1604 32 [1] iota_S512x1604_d1_w32)
    (broadcastTo S512x1604 (shapeCast S512x1 (shapeCast S512 tg shapeCasts_S512x1_S512) shapeCasts_S512_S512x1)
      broadcasts_S512x1_S512x1604)) natLt_1_32)
/-- The other classes' exponentials mixed by the class matrix. -/
def mixV : FVec Ideal S512x1604 .f32 :=
  matmul dot_S512x1604_S1604x1604_S512x1604_1_0_0_1_n_n none
    (truncf .bf16 (mulf (subf (broadcast S512x1604 (Scalar.ofBits (F := Ideal) .f32 0x3F800000#32)) (hotV tg)) (numV x0)) bitsLt_bf16_f32)
    (shapeCast S1604x1604 st shapeCasts_S1604x1604_S1604x1604) (constant S512x1604 .f32 0x00000000#32)
/-- Each column's term of its row's loss. -/
def termV : FVec Ideal S512x1604 .f32 :=
  mulf (hotV tg) (log (addf (divf (numV x0)
    (addf (addf (mixV x0 tg st) (numV x0)) (broadcast S512x1604 (Scalar.ofBits (F := Ideal) .f32 0x358637BD#32))))
    (broadcast S512x1604 (Scalar.ofBits (F := Ideal) .f32 0x358637BD#32))))
/-- Each row's loss. -/
def lossV : FVec Ideal S512 .f32 :=
  subf (broadcast S512 (Scalar.ofBits (F := Ideal) .f32 0x00000000#32))
    (multiReduction .add [1] S512 (termV x0 tg st) 0x00000000#32 reduces_S512x1604_S512 (.inl rfl) rfl)
/-- The tile's sum. -/
def tileV : Ideal .f32 :=
  extractAt ![0, 0] (shapeCast S1x1 (multiReduction .add [1] S1 (shapeCast S1x512 (lossV x0 tg st) shapeCasts_S512_S1x512)
    0x00000000#32 reduces_S1x512_S1 (.inl rfl) rfl) shapeCasts_S1_S1x1) inpos_S1x1_p0_0

/-- The body's value is the stages. -/
theorem pay3_eq : k0_pay3 (F := Ideal) x0 tg st = tileV x0 tg st := rfl

/-! ## The stages at an index -/

/-- Row `r` of the block, target word `r`, and the class matrix read back from its transpose. -/
abbrev row (r : Fin 512) : Fin 1604 → EReal := fun j => x0 (ix2 r j)
abbrev tgt (r : Fin 512) : BitVec 32 := tg (ix2 r (0 : Fin 1))
abbrev smat : Fin 1604 → Fin 1604 → EReal := fun i k => st (ix2 k i)

theorem maxV_apply (r : Fin 512) : maxV x0 (ix1 r) = rowMax (row x0 r) :=
  row_max_apply x0 0xFF800000#32 reduces_S512x1604_S512 (.inl rfl) rfl r

theorem numV_apply (r : Fin 512) (j : Fin 1604) : numV x0 (ix2 r j) = num (row x0 r) j := by
  have e1 := col_bcast_apply (shapeCast S512x1 (maxV x0) shapeCasts_S512_S512x1) broadcasts_S512x1_S512x1604 r j
  have e2 := col_cast_apply (maxV x0) shapeCasts_S512_S512x1 r
  show Ideal.exp (x0 (ix2 r j) - broadcastTo S512x1604 (shapeCast S512x1 (maxV x0) shapeCasts_S512_S512x1) broadcasts_S512x1_S512x1604 (ix2 r j)) = _
  rw [e1, e2, maxV_apply]
  rfl

theorem hotV_apply (r : Fin 512) (j : Fin 1604) : hotV tg (ix2 r j) = hot (tgt tg r) j.val := by
  have e0 := iota_single_apply .tc S512x1604 32 (1 : Fin 2) iota_S512x1604_d1_w32 (ix2 r j)
  have e1 := col_bcast_apply (shapeCast S512x1 (shapeCast S512 tg shapeCasts_S512x1_S512) shapeCasts_S512_S512x1) broadcasts_S512x1_S512x1604 r j
  have e2 := col_cast_apply (shapeCast S512 tg shapeCasts_S512x1_S512) shapeCasts_S512_S512x1 r
  have e3 : shapeCast S512 tg shapeCasts_S512x1_S512 (ix1 r) = tg (ix2 r (0 : Fin 1)) :=
    shapeCast_apply tg shapeCasts_S512x1_S512 (ix1 r) (ix2 r (0 : Fin 1)) (by
      rw [Shape.rowMajor_val_two, Shape.rowMajor_val_one]
      show r.val * 1 + 0 = r.val
      omega)
  show FloatOps.sitofp (F := Ideal) .f32 ((IntOp.cmpi .eq (iota .tc S512x1604 32 [1] iota_S512x1604_d1_w32 (ix2 r j))
    (broadcastTo S512x1604 (shapeCast S512x1 (shapeCast S512 tg shapeCasts_S512x1_S512) shapeCasts_S512_S512x1)
      broadcasts_S512x1_S512x1604 (ix2 r j))).setWidth 32) = _
  rw [e0, e1, e2, e3]
  exact hot_sitofp _ _

theorem mixV_apply (r : Fin 512) (i : Fin 1604) :
    mixV x0 tg st (ix2 r i) = ∑ k : Fin 1604, ((one - hot (tgt tg r) k.val) * num (row x0 r) k) * smat st i k := by
  have e := matmul_rows_apply dot_S512x1604_S1604x1604_S512x1604_1_0_0_1_n_n rfl rfl
    (fun _ _ => rfl) (fun _ _ => rfl) (fun _ _ => rfl) (fun _ _ => rfl) none
    (truncf .bf16 (mulf (subf (broadcast S512x1604 (Scalar.ofBits (F := Ideal) .f32 0x3F800000#32)) (hotV tg)) (numV x0)) bitsLt_bf16_f32)
    (shapeCast S1604x1604 st shapeCasts_S1604x1604_S1604x1604) r i
  refine e.trans (Finset.sum_congr rfl fun k _ => ?_)
  rw [shapeCast_self]
  show (one - hotV tg (ix2 r k)) * numV x0 (ix2 r k) * st (ix2 k i) = _
  rw [hotV_apply, numV_apply]

theorem termV_apply (r : Fin 512) (j : Fin 1604) :
    termV x0 tg st (ix2 r j) = term (row x0 r) (tgt tg r) (smat st) j := by
  show hotV tg (ix2 r j) * Ideal.log (Ideal.div (numV x0 (ix2 r j))
    ((mixV x0 tg st (ix2 r j) + numV x0 (ix2 r j)) + eps) + eps) = _
  rw [hotV_apply, numV_apply, mixV_apply]
  rfl

theorem lossV_apply (r : Fin 512) : lossV x0 tg st (ix1 r) = rowLoss (row x0 r) (tgt tg r) (smat st) := by
  have e := row_sum_apply (termV x0 tg st) 0x00000000#32 reduces_S512x1604_S512 (.inl rfl) rfl r
  show zero - multiReduction .add [1] S512 (termV x0 tg st) 0x00000000#32 reduces_S512x1604_S512 (.inl rfl) rfl (ix1 r) = _
  rw [e, zero_sub_eq]
  unfold rowLoss
  exact congrArg Neg.neg (Finset.sum_congr rfl fun j _ => termV_apply x0 tg st r j)

/-- THE TILE: the body's value is the sum of its 512 rows' losses. -/
theorem tileV_eq : tileV x0 tg st = ∑ r : Fin 512, rowLoss (row x0 r) (tgt tg r) (smat st) := by
  have hidx : (fun a => (⟨(![0, 0] : Fin 2 → ℕ) a, inpos_S1x1_p0_0 a⟩ : Fin (S1x1.size a))) = ix2 (0 : Fin 1) (0 : Fin 1) :=
    funext fun a => by match a with | ⟨0, _⟩ => rfl | ⟨1, _⟩ => rfl
  have h1 : tileV x0 tg st = shapeCast S1x1 (multiReduction .add [1] S1 (shapeCast S1x512 (lossV x0 tg st) shapeCasts_S512_S1x512)
      0x00000000#32 reduces_S1x512_S1 (.inl rfl) rfl) shapeCasts_S1_S1x1 (ix2 (0 : Fin 1) (0 : Fin 1)) :=
    congrArg (shapeCast S1x1 _ shapeCasts_S1_S1x1) hidx
  have h2 := col_cast_apply (multiReduction .add [1] S1 (shapeCast S1x512 (lossV x0 tg st) shapeCasts_S512_S1x512)
      0x00000000#32 reduces_S1x512_S1 (.inl rfl) rfl) shapeCasts_S1_S1x1 (0 : Fin 1)
  have h3 := row_sum_apply (shapeCast S1x512 (lossV x0 tg st) shapeCasts_S512_S1x512) 0x00000000#32 reduces_S1x512_S1 (.inl rfl) rfl (0 : Fin 1)
  refine h1.trans (h2.trans (h3.trans (Finset.sum_congr rfl fun c _ => ?_)))
  exact (UnitAxes.row_reshape_apply (lossV x0 tg st) shapeCasts_S512_S1x512 c).trans (lossV_apply x0 tg st c)

/-- The body's value at the ideal instance. -/
theorem pay3_apply : k0_pay3 (F := Ideal) x0 tg st = ∑ r : Fin 512, rowLoss (row x0 r) (tgt tg r) (smat st) :=
  (pay3_eq x0 tg st).trans (tileV_eq x0 tg st)

end Cert.Seesaw.Tile

end
-- ==== Proof.SeesawPieces.lean ====
/-
  What the body leaves behind at a grid point, case by case, as values.

  The kernel keeps one running sum in a [1,1] scratch.  At the first point the body sets it to zero, reads it back
  and leaves it at zero plus the tile's sum; at every later point it leaves it at what it held plus the tile's sum; at
  the last point it also writes that sum, divided by the row count, into the [1,1] output block.  Every store covers
  its whole buffer, so what a buffer ends with is its last store's value, and a read of a buffer that a store has just
  covered is that store's value; the loads of the three input blocks read whole buffers.
-/
import proofs.«117401_j73289321939313_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Seesaw.Pieces

open Cert.KernelIdeal Cert.KernelIdeal.Gen

variable {F : FTy → Type} [FloatOps F]

theorem hz : (![0, 0] : Fin 2 → Nat) = fun _ => 0 := funext fun a => by fin_cases a <;> rfl

/-- The first point: the scratch is set to zero, read back, and left at zero plus the tile's sum. -/
theorem sout_A (c : Dev nD) (i : grid0.Coords) (a1 : Memref sig .tc .vmem S512x1604 .f32) (h1 : a1.IsWhole) (a2 : Memref sig .tc .vmem S1604x1604 .bf16) (h2 : a2.IsWhole) (a3 : Memref sig .tc .vmem S512x1 .i32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S512x1604 .f32) (x1 : Vec F S1604x1604 .bf16) (x2 : Vec F S512x1 .i32) :
    sout0_A_0 c i a1 h1 a2 h2 a3 h3 a4 h4 a5 h5 hc0 hc1 x0 x1 x2 = k0_pay1 (k0_pay3 x0 x2 x1) k0_pay4 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h5.read_unread,
    View.ld_unit_zero (S := S512x1604) hz, View.ld_unit_zero (S := S1604x1604) hz, View.ld_unit_zero (S := S512x1) hz,
    View.ld_unit_zero (S := S1x1) hz]

/-- A middle point: the scratch, holding `xs0`, is left at `xs0` plus the tile's sum. -/
theorem sout_B (c : Dev nD) (i : grid0.Coords) (a1 : Memref sig .tc .vmem S512x1604 .f32) (h1 : a1.IsWhole) (a2 : Memref sig .tc .vmem S1604x1604 .bf16) (h2 : a2.IsWhole) (a3 : Memref sig .tc .vmem S512x1 .i32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S512x1604 .f32) (x1 : Vec F S1604x1604 .bf16) (x2 : Vec F S512x1 .i32) (xs0 : Vec F S1x1 .f32) :
    sout0_B_0 c i a1 h1 a2 h2 a3 h3 a4 h4 a5 h5 hc0 hc1 x0 x1 x2 xs0 = k0_pay1 (k0_pay3 x0 x2 x1) xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero (S := S1x1) hz]
  simp only [View.readAt_eq_ld, h1.read_unread, h2.read_unread, h3.read_unread, h5.read_unread,
    View.ld_unit_zero (S := S512x1604) hz, View.ld_unit_zero (S := S1604x1604) hz, View.ld_unit_zero (S := S512x1) hz,
    View.ld_unit_zero (S := S1x1) hz]

/-- The last point leaves the scratch likewise, -/
theorem sout_C (c : Dev nD) (i : grid0.Coords) (a1 : Memref sig .tc .vmem S512x1604 .f32) (h1 : a1.IsWhole) (a2 : Memref sig .tc .vmem S1604x1604 .bf16) (h2 : a2.IsWhole) (a3 : Memref sig .tc .vmem S512x1 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S512x1604 .f32) (x1 : Vec F S1604x1604 .bf16) (x2 : Vec F S512x1 .i32) (xs0 : Vec F S1x1 .f32) :
    sout0_C_0 c i a1 h1 a2 h2 a3 h3 a4 h4 a5 h5 hc0 hc1 x0 x1 x2 xs0 = k0_pay1 (k0_pay3 x0 x2 x1) xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero (S := S1x1) hz]
  simp only [View.readAt_eq_ld, h1.read_unread, h2.read_unread, h3.read_unread, h5.read_unread,
    View.ld_unit_zero (S := S512x1604) hz, View.ld_unit_zero (S := S1604x1604) hz, View.ld_unit_zero (S := S512x1) hz,
    View.ld_unit_zero (S := S1x1) hz]

/-- and writes that sum, divided by the row count, into the output block. -/
theorem out_C (c : Dev nD) (i : grid0.Coords) (a1 : Memref sig .tc .vmem S512x1604 .f32) (h1 : a1.IsWhole) (a2 : Memref sig .tc .vmem S1604x1604 .bf16) (h2 : a2.IsWhole) (a3 : Memref sig .tc .vmem S512x1 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S512x1604 .f32) (x1 : Vec F S1604x1604 .bf16) (x2 : Vec F S512x1 .i32) (xs0 : Vec F S1x1 .f32) :
    out0_C_3 c i a1 h1 a2 h2 a3 h3 a4 h4 a5 h5 hc0 hc1 x0 x1 x2 xs0 = k0_pay2 (k0_pay1 (k0_pay3 x0 x2 x1) xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero (S := S1x1) hz, View.readCov_unit_zero (S := S1x1) _ hz]
  simp only [View.readAt_eq_ld, h1.read_unread, h2.read_unread, h3.read_unread, h5.read_unread,
    View.ld_unit_zero (S := S512x1604) hz, View.ld_unit_zero (S := S1604x1604) hz, View.ld_unit_zero (S := S512x1) hz,
    View.ld_unit_zero (S := S1x1) hz]

end Cert.Seesaw.Pieces

end
-- ==== Proof.SeesawKernel.lean ====
/-
  The idealized kernel's run, read as a value: its result is the specification's loss of the batch.

  * What the region finds.  The target words arrive as a column [16384, 1] (a reshape of the argument), the class
    matrix arrives transposed (and changed of format, which is the identity on extended reals).  Block `t` of the
    logits is rows 512·t … 512·t + 511, block `t` of the target column likewise, and the class matrix is one block.
  * So the tile sum the body computes at point `t` is the sum of the losses of rows 512·t … 512·t + 511 of the
    arguments (the one-tile lemma at these blocks).
  * The scratch after point `n` holds the running sum of the first `n + 1` tile sums, started from zero: by induction
    on the point, over the three cases' values.
  * The output block is written back once, after the last point, holding that running sum over the row count; the
    block is the whole [1,1] array, and the host reshapes it to the scalar result.
  * The running sum of the 32 tile sums is the sum over all 16384 rows: a sum may be taken tile by tile.
-/
import proofs.«117401_j73289321939313_1_alg».proof.Proof.Gen.KernelIdeal.Frame
import proofs.«117401_j73289321939313_1_alg».proof.Proof.SeesawSpec
import proofs.«117401_j73289321939313_1_alg».proof.Proof.SeesawTile
import proofs.«117401_j73289321939313_1_alg».proof.Proof.SeesawPieces
import Idealize.ShloMosaic.Lib.Pipeline.Value
import Idealize.ShloMosaic.Lib.StableHlo.Run
import Idealize.ShloMosaic.Lib.Tactic
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Seesaw.Kernel

open Cert.KernelIdeal Cert.KernelIdeal.Gen Cert.Seesaw

/-! ## What the region finds (at any float instance) -/

section Entry
variable {F : FTy → Type} [FloatOps F] (m : (ℓ : Loc nD τ sig) → Buf (Elt F) ℓ)

/-- The target words as a column. -/
theorem V_v0 (c : Dev nD) : (V m c main_v0 : S16384x1.Idx → BitVec 32)
    = shapeCast S16384x1 (m ((c : Thread nD τ).loc main_arg2)) shapeCasts_S16384_S16384x1 := by
  show StableHlo.after hostOps0 (fun b => m (c, b)) (Proc.devRef .tc main_v0) = _
  after_results
  rfl

/-- The class matrix, transposed and changed of format. -/
theorem V_v2 (c : Dev nD) : (V m c main_v2 : S1604x1604.Idx → F .bf16)
    = truncf .bf16 (transpose S1604x1604 [1, 0] (m ((c : Thread nD τ).loc main_arg1)) transposes_S1604x1604_S1604x1604_1_0) bitsLt_bf16_f32 := by
  show StableHlo.after hostOps0 (fun b => m (c, b)) (Proc.devRef .tc main_v2) = _
  after_results

end Entry

variable (m : (ℓ : Loc nD τ sig) → Buf (Elt Ideal) ℓ) (ρ : Dev nD → PrngReg)

/-! ## The argument arrays, as the specification takes them -/

abbrev X (c : Dev nD) (R : Fin 16384) : Fin 1604 → EReal := fun j => m ((c : Thread nD τ).loc main_arg0) (ix2 R j)
abbrev G (c : Dev nD) (R : Fin 16384) : BitVec 32 := m ((c : Thread nD τ).loc main_arg2) (ix1 R)
abbrev S (c : Dev nD) : Fin 1604 → Fin 1604 → EReal := fun i k => m ((c : Thread nD τ).loc main_arg1) (ix2 i k)

/-! ## The blocks -/

/-- The four windows' block numbers at a point: the point's number along the rows for the logits and the targets,
    zero for the class matrix and the output. -/
theorem idx_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = 0 ∧ win0_3.index t 1 = 0) :=
  (by decide +kernel : ∀ t : Fin grid0.N, _)

/-- Block `t` of the logits at (d, j) is the argument at row 512·t + d. -/
theorem iblk0_apply (c : Dev nD) (t : Fin cfg0.N) (d : Fin 512) (j : Fin 1604) (R : Fin 16384) (hR : R.val = 512 * t.val + d.val) :
    (iblk m c 0 t : S512x1604.Idx → Ideal .f32) (ix2 d j) = m ((c : Thread nD τ).loc main_arg0) (ix2 R j) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * d.val = R.val; rw [(idx_facts t).1.1]; omega
  | ⟨1, _⟩ => show win0_0.index t 1 * 1604 + 1 * j.val = j.val; rw [(idx_facts t).1.2]; omega

/-- Block `t` of the target column at (d, 0) is the argument's word 512·t + d. -/
theorem iblk2_apply (c : Dev nD) (t : Fin cfg0.N) (d : Fin 512) (R : Fin 16384) (hR : R.val = 512 * t.val + d.val) :
    (iblk m c 2 t : S512x1.Idx → BitVec 32) (ix2 d (0 : Fin 1)) = m ((c : Thread nD τ).loc main_arg2) (ix1 R) := by
  unfold iblk
  rw [View.read_apply]
  show V m c main_v0 _ = _
  rw [V_v0]
  refine shapeCast_apply (m ((c : Thread nD τ).loc main_arg2)) shapeCasts_S16384_S16384x1 _ (ix1 R) ?_
  show (S16384.rowMajor (ix1 R)).val = (S16384x1.rowMajor _).val
  rw [Shape.rowMajor_val_one, Shape.rowMajor_val_two]
  show R.val = (win0_2.index t 0 * 512 + 1 * d.val) * 1 + (win0_2.index t 1 * 1 + 1 * 0)
  rw [(idx_facts t).2.2.1.1, (idx_facts t).2.2.1.2]
  omega

/-- The class matrix's one block at (k, i) is the argument at (i, k). -/
theorem iblk1_apply (c : Dev nD) (t : Fin cfg0.N) (k i : Fin 1604) :
    (iblk m c 1 t : S1604x1604.Idx → Ideal .bf16) (ix2 k i) = m ((c : Thread nD τ).loc main_arg1) (ix2 i k) := by
  unfold iblk
  rw [View.read_apply]
  show V m c main_v2 _ = _
  rw [V_v2]
  show transpose S1604x1604 [1, 0] (m ((c : Thread nD τ).loc main_arg1)) transposes_S1604x1604_S1604x1604_1_0 _ = _
  refine transpose_apply [1, 0] (m ((c : Thread nD τ).loc main_arg1)) transposes_S1604x1604_S1604x1604_1_0 _ (ix2 i k) (fun b => ?_)
  match b with
  | ⟨0, _⟩ => show k.val = win0_1.index t 0 * 1604 + 1 * k.val; rw [(idx_facts t).2.1.1]; omega
  | ⟨1, _⟩ => show i.val = win0_1.index t 1 * 1604 + 1 * i.val; rw [(idx_facts t).2.1.2]; omega

/-! ## The tile sum at a point -/

/-- What the body computes at point `t`. -/
def part (c : Dev nD) (t : Fin cfg0.N) : EReal :=
  k0_pay3 (F := Ideal) (iblk m c 0 t) (iblk m c 2 t) (iblk m c 1 t)

/-- It is the sum of the losses of the point's 512 rows of the arguments. -/
theorem part_eq (c : Dev nD) (t : Fin cfg0.N) :
    part m c t = ∑ d : Fin 512, rowLoss (X m c (tileRow t.val d)) (G m c (tileRow t.val d)) (S m c) := by
  have hN : t.val < 32 := lt_of_lt_of_eq t.isLt (show cfg0.N = 32 from N_0)
  refine (Tile.pay3_apply (iblk m c 0 t) (iblk m c 2 t) (iblk m c 1 t)).trans (Finset.sum_congr rfl fun d _ => ?_)
  have hR : (tileRow t.val d).val = 512 * t.val + d.val := Nat.mod_eq_of_lt (by have := d.isLt; omega)
  have e0 : Tile.row (iblk m c 0 t) d = X m c (tileRow t.val d) := funext fun j => iblk0_apply m c t d j _ hR
  have e2 : Tile.tgt (iblk m c 2 t) d = G m c (tileRow t.val d) := iblk2_apply m c t d _ hR
  have e1 : Tile.smat (iblk m c 1 t) = S m c := funext fun i => funext fun k => iblk1_apply m c t k i
  rw [e0, e2, e1]

/-- The tile sums by number (zero past the grid). -/
def partN (c : Dev nD) (k : ℕ) : EReal := if h : k < cfg0.N then part m c ⟨k, h⟩ else 0

/-! ## The stores' values -/

theorem pay1_apply (v : Ideal .f32) (a : Vec Ideal S1x1 .f32) : k0_pay1 (F := Ideal) v a = fun i => a i + v := by
  funext i
  show shapeCast S1x1 (addf a (broadcast S1x1 v)) shapeCasts_S1x1_S1x1 i = _
  rw [shapeCast_self]
  rfl

theorem pay4_eq : k0_pay4 (F := Ideal) = fun _ => zero := by
  show shapeCast S1x1 (broadcast S1x1 (Scalar.ofBits (F := Ideal) .f32 0x00000000#32)) shapeCasts_S1x1_S1x1 = _
  rw [shapeCast_self]
  rfl

theorem pay2_apply (a : Vec Ideal S1x1 .f32) : k0_pay2 (F := Ideal) a = fun i => Ideal.div (a i) cnt := rfl

/-! ## The scratch and the output, point by point -/

theorem scr_A (c : Dev nD) (t : Fin cfg0.N) (h0 : t.val % 32 = 0) (h1 : ¬t.val % 32 = 31) :
    (outsAt0 (F := Ideal) m c t.val t.isLt).2 = k0_pay1 (F := Ideal) (part m c t) (k0_pay4 (F := Ideal)) := by
  rw [outsAt0_A m c t h0 h1]
  exact Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem scr_B (c : Dev nD) (t : Fin cfg0.N) (h0 : ¬t.val % 32 = 0) (h1 : ¬t.val % 32 = 31) :
    (outsAt0 (F := Ideal) m c t.val t.isLt).2 = k0_pay1 (F := Ideal) (part m c t) (outsAt0 m c (t.val - 1) (Nat.lt_of_le_of_lt (Nat.sub_le _ _) t.isLt)).2 := by
  rw [outsAt0_B m c t h0 h1]
  exact Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem scr_C (c : Dev nD) (t : Fin cfg0.N) (h0 : ¬t.val % 32 = 0) (h1 : t.val % 32 = 31) :
    (outsAt0 (F := Ideal) m c t.val t.isLt).2 = k0_pay1 (F := Ideal) (part m c t) (outsAt0 m c (t.val - 1) (Nat.lt_of_le_of_lt (Nat.sub_le _ _) t.isLt)).2 := by
  rw [outsAt0_C m c t h0 h1]
  exact Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

theorem out_C (c : Dev nD) (t : Fin cfg0.N) (h0 : ¬t.val % 32 = 0) (h1 : t.val % 32 = 31) :
    (outsAt0 (F := Ideal) m c t.val t.isLt).1 = k0_pay2 (F := Ideal) (k0_pay1 (F := Ideal) (part m c t) (outsAt0 m c (t.val - 1) (Nat.lt_of_le_of_lt (Nat.sub_le _ _) t.isLt)).2) := by
  rw [outsAt0_C m c t h0 h1]
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- THE ACCUMULATION: after point `n` the scratch holds the running sum of the tile sums up to `n`. -/
theorem scratch_eq (c : Dev nD) : ∀ (n : ℕ) (h : n < cfg0.N),
    (outsAt0 (F := Ideal) m c n h).2 = fun _ => runSum (partN m c) n
  | 0, h => by
    refine (scr_A m c ⟨0, h⟩ rfl (by dsimp only; omega)).trans ?_
    rw [pay1_apply, pay4_eq]
    funext i
    show zero + part m c ⟨0, h⟩ = zero + partN m c 0
    rw [partN, dif_pos h]
  | n + 1, h => by
    have hN : n + 1 < 32 := lt_of_lt_of_eq h (show cfg0.N = 32 from N_0)
    have h0 : ¬(⟨n + 1, h⟩ : Fin cfg0.N).val % 32 = 0 := by dsimp only; omega
    have step : (outsAt0 (F := Ideal) m c (n + 1) h).2
        = k0_pay1 (F := Ideal) (part m c ⟨n + 1, h⟩) (outsAt0 m c n (Nat.lt_of_succ_lt h)).2 := by
      by_cases h1 : (⟨n + 1, h⟩ : Fin cfg0.N).val % 32 = 31
      · exact scr_C m c ⟨n + 1, h⟩ h0 h1
      · exact scr_B m c ⟨n + 1, h⟩ h0 h1
    rw [step, pay1_apply, scratch_eq c n]
    funext i
    show runSum (partN m c) n + part m c ⟨n + 1, h⟩ = runSum (partN m c) n + partN m c (n + 1)
    rw [partN, dif_pos h]

/-- The kernel's loss of the batch: the running sum after the last tile, over the row count. -/
def lossK (c : Dev nD) : EReal := Ideal.div (runSum (partN m c) 31) cnt

/-- The output block after the last point. -/
theorem out_last (c : Dev nD) (t : Fin cfg0.N) (h31 : t.val = 31) :
    (outsAt0 (F := Ideal) m c t.val t.isLt).1 = fun _ => lossK m c := by
  have h0 : ¬t.val % 32 = 0 := by omega
  have h1 : t.val % 32 = 31 := by omega
  rw [out_C m c t h0 h1, pay2_apply, pay1_apply]
  have hp : (outsAt0 (F := Ideal) m c (t.val - 1) (Nat.lt_of_le_of_lt (Nat.sub_le _ _) t.isLt)).2
      = fun _ => runSum (partN m c) (t.val - 1) := scratch_eq m c (t.val - 1) _
  rw [hp]
  funext i
  show Ideal.div (runSum (partN m c) (t.val - 1) + part m c t) cnt = lossK m c
  have hpt : partN m c 31 = part m c t := by
    rw [partN, dif_pos (h31 ▸ t.isLt)]
    exact congrArg (part m c) (Fin.ext h31.symm)
  have e30 : t.val - 1 = 30 := by omega
  have e : runSum (partN m c) 31 = runSum (partN m c) (t.val - 1) + part m c t := by
    rw [e30, ← hpt]
    rfl
  unfold lossK
  rw [e]

/-! ## The result array -/

/-- The [1,1] result array after the region. -/
abbrev result (c : Dev nD) : Buf (Elt Ideal) ((c : Thread nD τ).loc main_v3) := fun _ => lossK m c

/-- The one write-back, after the last point, writes it: block (0, 0) of the [1,1] array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  show (cfg0.win 3).cut (grid0.coords t) ((dats m 0 c).after 3 t) = _
  rw [after0_3, out_last m c t h31]
  have hz' : (fun a => win0_3.index t a * main_v3.ty.shape.size a) = fun _ => 0 := funext fun a => by
    match a with
    | ⟨0, _⟩ => show win0_3.index t 0 * 1 = 0; rw [(idx_facts t).2.2.2.1]
    | ⟨1, _⟩ => show win0_3.index t 1 * 1 = 0; rw [(idx_facts t).2.2.2.2]
  exact (Memref.read_access_unit_zero (Elt Ideal) main_v3 hz' (fun a => by rw [congrFun hz' a]; simp) (result m c)).symm

/-- So the result array ends holding the kernel's loss. -/
theorem final (c : Dev nD) : (dats m 0 c).arrAt 3 cfg0.N = result m c := by
  have hN : cfg0.N = 32 := N_0
  let tL : Fin cfg0.N := ⟨31, by omega⟩
  refine (dats m 0 c).arrAt_eq_of_cover 3 (result m c) (flushed_eq m c) fun i =>
    ⟨tL, (flush0_3 tL).mpr rfl, ?_⟩
  show i ∈ ((View.whole main_v3).slice (win0_3.rect tL)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index tL 0 * win0_3.size 0 ≤ (i 0 : Nat) ∧ (i 0 : Nat) < win0_3.index tL 0 * win0_3.size 0 + win0_3.xsize (grid0.coords tL) 0
    rw [(idx_facts tL).2.2.2.1, show win0_3.size 0 = 1 from rfl, show win0_3.xsize (grid0.coords tL) 0 = 1 from rfl]; omega
  | ⟨1, _⟩ =>
    show win0_3.index tL 1 * win0_3.size 1 ≤ (i 1 : Nat) ∧ (i 1 : Nat) < win0_3.index tL 1 * win0_3.size 1 + win0_3.xsize (grid0.coords tL) 1
    rw [(idx_facts tL).2.2.2.2, show win0_3.size 1 = 1 from rfl, show win0_3.xsize (grid0.coords tL) 1 = 1 from rfl]; omega

/-! ## The running sum is the sum over the rows -/

theorem lossK_eq (c : Dev nD) : lossK m c = total (X m c) (G m c) (S m c) := by
  have hN : cfg0.N = 32 := N_0
  unfold lossK total
  refine congrArg (fun a => Ideal.div a cnt) ?_
  rw [runSum_eq, ← sum_tiles (fun R => rowLoss (X m c R) (G m c R) (S m c))]
  refine Finset.sum_congr rfl fun k hk => ?_
  have hk' : k < cfg0.N := by have := Finset.mem_range.mp hk; omega
  rw [partN, dif_pos hk']
  exact part_eq m c ⟨k, hk'⟩

/-! ## The run -/

/-- The scalar the program returns: the host reshapes the [1,1] array. -/
theorem tail_eq (c : Dev nD) :
    Pipeline.afterTail₀ cfgs (dats m) 0 (V0 m) [hostOps1] c main_v4 = fun _ => total (X m c) (G m c) (S m c) := by
  unfold Pipeline.afterTail₀
  show StableHlo.after hostOps1 _ (Proc.devRef .tc main_v4) = _
  after_results
  rw [Pipeline.withArrays_arr spec0 launch0.win.arr_inj c _ _ 3, final m c]
  funext i
  exact lossK_eq m c

/-- Every weakly fair execution of the idealized kernel's program terminates with the result at the
    specification's loss of the batch of the arguments as launched, and the arguments unchanged. -/
theorem run : θ_run defs (onTc (τ := τ) (main (F := Ideal))) ⟨m, fun _ => 0, ρ⟩ fun r => ∀ c : Dev nD,
      r.2.mem ((c : Thread nD τ).loc main_v4) = (fun _ => total (X m c) (G m c) (S m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Seesaw.Kernel

end
-- ==== Proof.SeesawRef.lean ====
/-
  The reference computes the seesaw loss of the batch: its result, read one operation at a time, is the
  specification's `total` of the argument arrays.

  Row `R` of the reference's arrays: the one-hot array at (R, j) compares row R's target word with the column number
  j; the row maximum (a reduce from -∞ with a `maximum` body, a fold of `max` in any order) is repeated along the row by
  two broadcasts; the contraction `dot_general` over the SECOND axis of both operands reads `s` at (i, k), which is
  the specification's `s i k`; the two sums start from the zero word, and the negation is a negation.
-/
import proofs.«117401_j73289321939313_1_alg».proof.Proof.Gen.ReferenceIdeal.Read
import proofs.«117401_j73289321939313_1_alg».proof.Proof.SeesawSpec
import Idealize.ShloMosaic.PureOps.Reduce

noncomputable section

open scoped BigOperators

namespace Cert.Seesaw.Ref

open Cert.ReferenceIdeal Cert.ReferenceIdeal.Gen Cert.ReferenceIdeal.Read Idealize.ShloMosaic Idealize.ShloMosaic.ValueIdx
  Cert.Seesaw

variable (x0 : (⟨S16384x1604, .f32⟩ : BufTy).Contents (Elt Ideal)) (x1 : (⟨S1604x1604, .f32⟩ : BufTy).Contents (Elt Ideal))
  (x2 : (⟨S16384, .i32⟩ : BufTy).Contents (Elt Ideal))

/-- Row `R` of the logits, row `R`'s target word, and the class matrix, as the specification takes them. -/
abbrev row (R : Fin 16384) : Fin 1604 → EReal := fun j => x0 (ix2 R j)
abbrev tgt (R : Fin 16384) : BitVec 32 := x2 (ix1 R)
abbrev smat : Fin 1604 → Fin 1604 → EReal := fun i k => x1 (ix2 i k)

/-- Two indices with the same coordinates are equal (rank 2, rank 1). -/
local macro "idx_eq2" : tactic => `(tactic| exact funext fun a => by match a with | ⟨0, _⟩ => rfl | ⟨1, _⟩ => rfl)
local macro "idx_eq1" : tactic => `(tactic| exact funext fun a => by match a with | ⟨0, _⟩ => rfl)

/-- A reduce from -∞ with a `maximum` body along the rows of the [16384, 1604] array, at row `R`: the row's maximum
    as the specification takes it (the general fact, at these extents). -/
theorem rowmax_host (x : FVec Ideal S16384x1604 .f32) (R : Fin 16384) :
    Host.reduce (FloatOps.maximumf (F := Ideal) (φ := .f32)) x (constant (F := Ideal) S_ .f32 0xFF800000#32)
        reducesTo_S16384x1604_S16384_d1 h_S_ (ix1 R)
      = rowMax (fun j => x (ix2 R j)) :=
  Cert.OneHotRunSum.host_row_max_apply x (constant (F := Ideal) S_ .f32 0xFF800000#32)
    reducesTo_S16384x1604_S16384_d1 (by decide) h_S_ R

/-- The row maximum. -/
theorem v1_apply (R : Fin 16384) : val_main_v1 (F := Ideal) x0 (ix1 R) = rowMax (row x0 R) :=
  rowmax_host x0 R

/-- The shifted exponential. -/
theorem v5_apply (R : Fin 16384) (j : Fin 1604) : val_main_v5 (F := Ideal) x0 (ix2 R j) = num (row x0 R) j := by
  have e3 : idx_main_v3 (ix2 R j) = ix2 R (0 : Fin 1) := by idx_eq2
  have e2 : idx_main_v2 (ix2 R (0 : Fin 1)) = ix1 R := by idx_eq1
  rw [val_main_v5_apply, val_main_v4_apply, val_main_v3_apply, e3, val_main_v2_apply, e2, v1_apply]
  rfl

/-- The one-hot weight. -/
theorem v0_apply (R : Fin 16384) (j : Fin 1604) : val_main_v0 (F := Ideal) x2 (ix2 R j) = hot (tgt x2 R) j.val := by
  have e2 : idx_main_call0_v2 (ix2 R j) = ix2 R (0 : Fin 1) := by idx_eq2
  have e0 : idx_main_call0_v0 (ix2 R (0 : Fin 1)) = ix1 R := by idx_eq1
  rw [val_main_v0_apply, val_main_call0_v4_apply, val_main_call0_v2_apply, e2, val_main_call0_v0_apply, e0,
    val_main_call0_v3_apply, val_main_call0_v1_apply]
  exact hot_uitofp _ _

/-- The other classes' exponential at (R, k). -/
theorem v8_apply (R : Fin 16384) (k : Fin 1604) :
    val_main_v8 (F := Ideal) x0 x2 (ix2 R k) = (one - hot (tgt x2 R) k.val) * num (row x0 R) k := by
  rw [val_main_v8_apply, val_main_v7_apply, val_main_v6_apply, v0_apply, v5_apply]
  rfl

/-- The contraction with the class matrix. -/
theorem v9_apply (R : Fin 16384) (j : Fin 1604) :
    val_main_v9 (F := Ideal) x0 x1 x2 (ix2 R j)
      = ∑ k : Fin 1604, ((one - hot (tgt x2 R) k.val) * num (row x0 R) k) * smat x1 j k := by
  rw [val_main_v9_apply]
  refine Finset.sum_congr rfl fun k _ => ?_
  have el : lidx_main_v9 (ix2 R j) k = ix2 R k := by idx_eq2
  have er : ridx_main_v9 (ix2 R j) k = ix2 j k := by idx_eq2
  rw [el, er, v8_apply]

/-- One column's term. -/
theorem v17_apply (R : Fin 16384) (j : Fin 1604) :
    val_main_v17 (F := Ideal) x0 x1 x2 (ix2 R j) = term (row x0 R) (tgt x2 R) (smat x1) j := by
  rw [val_main_v17_apply, val_main_v16_apply, val_main_v15_apply, val_main_v13_apply, val_main_v12_apply,
    val_main_v10_apply, val_main_v14_apply, val_main_v11_apply, v0_apply, v5_apply, v9_apply]
  rfl

/-- One row's loss. -/
theorem v19_apply (R : Fin 16384) :
    val_main_v19 (F := Ideal) x0 x1 x2 (ix1 R) = rowLoss (row x0 R) (tgt x2 R) (smat x1) := by
  rw [val_main_v19_apply, val_main_v18_apply]
  show -(zero + ∑ k : Fin 1604, val_main_v17 (F := Ideal) x0 x1 x2 (idx_main_v18 (ix1 R) k)) = _
  rw [zero_add_eq]
  unfold rowLoss
  refine congrArg Neg.neg (Finset.sum_congr rfl fun k _ => ?_)
  have e : idx_main_v18 (ix1 R) k = ix2 R k := by idx_eq2
  rw [e, v17_apply]

/-- THE REFERENCE: its result is the specification's loss of the batch. -/
theorem v21_eq : val_main_v21 (F := Ideal) x0 x1 x2 = fun _ => total (row x0) (tgt x2) (smat x1) := by
  funext i
  rw [val_main_v21_apply, val_main_v20_apply]
  show Ideal.div (zero + ∑ j : S16384.Idx, val_main_v19 (F := Ideal) x0 x1 x2 j) cnt = Ideal.div _ cnt
  rw [zero_add_eq]
  exact congrArg (fun a => Ideal.div a cnt)
    ((sum_idx1 _).trans (Finset.sum_congr rfl fun R _ => v19_apply x0 x1 x2 R))

end Cert.Seesaw.Ref

end
-- ==== Proof.lean ====
/-
  The seesaw loss with logits: a tiled kernel against its plain reference, equal on the extended reals.

  Both programs compute, for logits `x` [16384, 1604], target words `g` [16384] and a class matrix `s` [1604, 1604],

      ( Σ_R  - Σ_j hot(g_R, j) · log( num_R(j) / (Σ_k (1 - hot(g_R, k)) · num_R(k) · s(j, k) + num_R(j) + ε) + ε ) ) / 16384,

  where num_R(j) = exp(x(R, j) - max_j x(R, j)).  The reference does it on whole arrays.  The kernel walks 32 tiles of
  512 rows, forms each tile's sum of row losses (its product runs against the transposed matrix, in a narrower float
  format that the extended reals do not see), adds it into a one-entry scratch that it zeroes at the first tile, and at
  the last tile writes the scratch over the row count.  The two differ only in how the outer sum is grouped, in
  `0 - a` for `-a`, and in starting sums from the zero word: laws of a commutative additive monoid, valid at the
  infinities too, so the inputs' finiteness is never opened.

  Modules: SeesawSpec (the loss as one function, and the grouping law), SeesawTile (one tile's value, operation by
  operation), SeesawPieces (what each grid point's stores leave), SeesawKernel (the kernel's run read as that function),
  SeesawRef (the reference's run read as that function).  The three frames are the programs' generated runs; the
  idealization rewrote nothing.
-/
import proofs.«117401_j73289321939313_1_alg».proof.Defs
import proofs.«117401_j73289321939313_1_alg».proof.Proof.Gen.Kernel
import proofs.«117401_j73289321939313_1_alg».proof.Proof.Gen.Kernel.Frame
import proofs.«117401_j73289321939313_1_alg».proof.Proof.Gen.KernelIdeal
import proofs.«117401_j73289321939313_1_alg».proof.Proof.Gen.KernelIdeal.Frame
import proofs.«117401_j73289321939313_1_alg».proof.Proof.Gen.ReferenceIdeal
import proofs.«117401_j73289321939313_1_alg».proof.Proof.Gen.ReferenceIdeal.Run
import proofs.«117401_j73289321939313_1_alg».proof.Proof.Gen.ReferenceIdeal.Read
import proofs.«117401_j73289321939313_1_alg».proof.Proof.Gen.Pre_finite_inputs
import proofs.«117401_j73289321939313_1_alg».proof.Proof.SeesawKernel
import proofs.«117401_j73289321939313_1_alg».proof.Proof.SeesawRef
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's loss of the batch. -/
theorem algebraic : Cert.algebraic_KernelIdeal_ReferenceIdeal := by
  intro m ρ m' ρ' _ hagree
  refine ⟨fun c => fun _ => Cert.Seesaw.total (Cert.Seesaw.Kernel.X m c) (Cert.Seesaw.Kernel.G m c) (Cert.Seesaw.Kernel.S m c),
    Cert.Seesaw.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Seesaw.Ref.v21_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
